-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S16384x32 : Shape := ⟨2, ![16384, 32]⟩
abbrev S16385 : Shape := ⟨1, ![16385]⟩
abbrev S1048576 : Shape := ⟨1, ![1048576]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  main_v18

def fn {F : FTy → Type} [FloatOps F] (main_arg0 : FVec F S4096x16384 .f32) (main_arg1 : FVec F S16384x32 .f32) (main_arg2 : FVec F S16384x32 .f32) (main_arg3 : IVec S16385 32) (main_arg4 : IVec S1048576 32) (main_arg5 : FVec F S1048576 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S16384x32 .f32 := Host.absf main_arg2
  let main_cst_2 : FVec F S_ .f32 := constant S_ .f32 0x7F800000#32
  let main_v10 : FVec F S16384x32 .f32 := broadcastInDim S16384x32 ![] bcast_S_S16384x32 main_cst_2
  let main_v11 : IVec S16384x32 1 := cmpf .olt main_v9 main_v10
  let main_c_3 : IVec S_ 1 := constantI S_ 1 1#1
  let main_v12 : IVec S_ 1 := (fun x v => Host.reduce IntOp.andi x v reducesTo_S16384x32_S_d0_1 h_S_) main_v11 main_c_3
  let main_v13 : IVec S_ 1 := andi main_v8 main_v12
  let main_v14 : FVec F S1048576 .f32 := Host.absf main_arg5
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_v13 main_v16
-- ==== Kernel.lean ====
abbrev S4096x16384 : Shape := ⟨2, ![4096, 16384]⟩
abbrev S16384x32 : Shape := ⟨2, ![16384, 32]⟩
abbrev S16385 : Shape := ⟨1, ![16385]⟩
abbrev S1048576 : Shape := ⟨1, ![1048576]⟩
abbrev S32x16384 : Shape := ⟨2, ![32, 16384]⟩
abbrev S128x16384 : Shape := ⟨2, ![128, 16384]⟩
abbrev S128x32 : Shape := ⟨2, ![128, 32]⟩

abbrev nBuf : Space → Nat
  | .hbm => 11
  | .vmem => 6
  | .smem => 0
  | _ => 0

abbrev bufTy : (tb : Table) → Fin (tcTables nBuf tb) → BufTy
  | .hbm, ⟨0, _⟩ => ⟨S4096x16384, .f32⟩
  | .hbm, ⟨1, _⟩ => ⟨S16384x32, .f32⟩
  | .hbm, ⟨2, _⟩ => ⟨S16384x32, .f32⟩
  | .hbm, ⟨3, _⟩ => ⟨S16385, .i32⟩
  | .hbm, ⟨4, _⟩ => ⟨S1048576, .i32⟩
  | .hbm, ⟨5, _⟩ => ⟨S1048576, .f32⟩
  | .hbm, ⟨6, _⟩ => ⟨S32x16384, .f32⟩
  | .hbm, ⟨7, _⟩ => ⟨S32x16384, .bf16⟩
  | .hbm, ⟨8, _⟩ => ⟨S32x16384, .f32⟩
  | .hbm, ⟨9, _⟩ => ⟨S32x16384, .bf16⟩
  | .hbm, ⟨10, _⟩ => ⟨S4096x16384, .f32⟩
  | .local _ .vmem, ⟨0, _⟩ => ⟨S128x16384, .f32⟩
  | .local _ .vmem, ⟨1, _⟩ => ⟨S128x16384, .f32⟩
  | .local _ .vmem, ⟨2, _⟩ => ⟨S32x16384, .bf16⟩
  | .local _ .vmem, ⟨3, _⟩ => ⟨S32x16384, .bf16⟩
  | .local _ .vmem, ⟨4, _⟩ => ⟨S128x16384, .f32⟩
  | .local _ .vmem, ⟨5, _⟩ => ⟨S128x16384, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16384x32_S32x16384_1_0 : S16384x32.Transposes [1, 0] S32x16384
  bitsLt_bf16_f32 : FTy.bits .bf16 < FTy.bits .f32
  inb_S128x16384_S128x16384_0_0 : ∀ a, (![0, 0] : Fin 2 → Nat) a + S128x16384.size a ≤ S128x16384.size a
  h_S128x16384 : 0 < S128x16384.numel
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  dot_S128x16384_S32x16384_S128x32_1_1_0_0_n_n_wf : DotDims.WF S128x16384 S32x16384 S128x32 [1] [1] [0] [0] [] []
  dot_S128x32_S32x16384_S128x16384_1_0_0_1_n_n_wf : DotDims.WF S128x32 S32x16384 S128x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S4096x16384.size a
  hwx0_0 : ∀ i : grid0.Coords, EltTy.bits .f32 = 32 ∨ (Rect.block (s := S4096x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S32x16384.size a
  hwx0_1 : ∀ i : grid0.Coords, EltTy.bits .bf16 = 32 ∨ (Rect.block (s := S32x16384) S32x16384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x16384.size a ≤ S32x16384.size a
  hwx0_2 : ∀ i : grid0.Coords, EltTy.bits .bf16 = 32 ∨ (Rect.block (s := S32x16384) S32x16384.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16384.size a ≤ S4096x16384.size a
  hwx0_3 : ∀ i : grid0.Coords, EltTy.bits .f32 = 32 ∨ (Rect.block (s := S4096x16384) S128x16384.size (cc0_transform_3 i) (hinb0_3 i)).WholeWords (EltTy.packing .f32)

variable [Facts₀]

def dot_S128x16384_S32x16384_S128x32_1_1_0_0_n_n : DotDims S128x16384 S32x16384 S128x32 where
  lhsContracting := [1]
  rhsContracting := [1]
  lhsNonContracting := [0]
  rhsNonContracting := [0]
  lhsBatch := []
  rhsBatch := []
  wf := dot_S128x16384_S32x16384_S128x32_1_1_0_0_n_n_wf
def dot_S128x32_S32x16384_S128x16384_1_0_0_1_n_n : DotDims S128x32 S32x16384 S128x16384 where
  lhsContracting := [1]
  rhsContracting := [0]
  lhsNonContracting := [0]
  rhsNonContracting := [1]
  lhsBatch := []
  rhsBatch := []
  wf := dot_S128x32_S32x16384_S128x16384_1_0_0_1_n_n_wf

abbrev win0_0 : Pipeline.Window sig grid0 :=
  Pipeline.Window.ofSpec (Memref.whole main_arg0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S16384x32 : Shape := ⟨2, ![16384, 32]⟩
abbrev S16385 : Shape := ⟨1, ![16385]⟩
abbrev S1048576 : Shape := ⟨1, ![1048576]⟩
abbrev S4096x32 : Shape := ⟨2, ![4096, 32]⟩
abbrev S32x16384 : Shape := ⟨2, ![32, 16384]⟩

abbrev nBuf : Space → Nat
  | .hbm => 9
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384x32, .f32⟩
  | .hbm, ⟨2, _⟩ => ⟨S16384x32, .f32⟩
  | .hbm, ⟨3, _⟩ => ⟨S16385, .i32⟩
  | .hbm, ⟨4, _⟩ => ⟨S1048576, .i32⟩
  | .hbm, ⟨5, _⟩ => ⟨S1048576, .f32⟩
  | .hbm, ⟨6, _⟩ => ⟨S4096x32, .f32⟩
  | .hbm, ⟨7, _⟩ => ⟨S32x16384, .f32⟩
  | .hbm, ⟨8, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]

class Facts₀ : Prop where
  transposes_S16384x32_S32x16384_1_0 : S16384x32.Transposes [1, 0] S32x16384
  dot_S4096x16384_S16384x32_S4096x32_1_0_0_1_n_n_wf : DotDims.WF S4096x16384 S16384x32 S4096x32 [1] [0] [0] [1] [] []
  dot_S4096x32_S32x16384_S4096x16384_1_0_0_1_n_n_wf : DotDims.WF S4096x32 S32x16384 S4096x16384 [1] [0] [0] [1] [] []

variable [Facts₀]

def dot_S4096x16384_S16384x32_S4096x32_1_0_0_1_n_n : DotDims S4096x16384 S16384x32 S4096x32 where
  lhsContracting := [1]
  rhsContracting := [0]
  lhsNonContracting := [0]
  rhsNonContracting := [1]
  lhsBatch := []
  rhsBatch := []
  wf := dot_S4096x16384_S16384x32_S4096x32_1_0_0_1_n_n_wf
def dot_S4096x32_S32x16384_S4096x16384_1_0_0_1_n_n : DotDims S4096x32 S32x16384 S4096x16384 where
  lhsContracting := [1]
  rhsContracting := [0]
  lhsNonContracting := [0]
  rhsNonContracting := [1]
  lhsBatch := []
  rhsBatch := []
  wf := dot_S4096x32_S32x16384_S4096x16384_1_0_0_1_n_n_wf

class Facts : Prop extends Facts₀ where

variable [Facts]
-- ==== Proof.Spec.lean ====
/-
  The low-rank projection as ONE function of the three argument arrays.

  For spikes `s` of shape [4096, 16384] and factors `u`, `v` of shape [16384, 32] the result at `(b, j)` is

      Σ_{r < 32} (Σ_{k < 16384} s[b, k] · v[k, r]) · u[j, r]

  on the extended reals: row `b` of the spikes is projected on the 32 columns of `v`, and the 32 projections are
  expanded along row `j` of `u`. Both programs compute this nest of sums with the factors in this order — the kernel
  one block of 128 rows at a time, the reference on the whole arrays — so joining them needs no law of the extended
  reals: not distributivity, not a reordering of a sum, and therefore no finiteness of the inputs.
-/
import Idealize.ShloMosaic.PureOps.Ideal
import Idealize.ShloMosaic.Lib.ValueIdx

noncomputable section

namespace Cert.LowRank

open Idealize.ShloMosaic Idealize.ShloMosaic.ValueIdx

/-- An array of spikes (and the result, which has the same shape), and a factor. -/
abbrev Spikes : Type := (⟨2, ![4096, 16384]⟩ : Shape).Idx → EReal
abbrev Factor : Type := (⟨2, ![16384, 32]⟩ : Shape).Idx → EReal

/-- Row `b` of the spikes projected on column `r` of `v`: `Σ_k s[b, k] · v[k, r]`. -/
def proj (s : Spikes) (v : Factor) (b : Fin 4096) (r : Fin 32) : EReal :=
  ∑ k : Fin 16384, s (ix2 b k) * v (ix2 k r)

/-- The reconstruction at row `b`, column `j`: `Σ_r proj[b, r] · u[j, r]`. -/
def recon (s : Spikes) (u v : Factor) (b : Fin 4096) (j : Fin 16384) : EReal :=
  ∑ r : Fin 32, proj s v b r * u (ix2 j r)

/-- The whole result array. -/
def lowRank (s : Spikes) (u v : Factor) : Spikes := fun i => recon s u v (i 0) (i 1)

/-- At an index given by its coordinates. -/
theorem lowRank_ix2 (s : Spikes) (u v : Factor) (b : Fin 4096) (j : Fin 16384) :
    lowRank s u v (ix2 b j) = recon s u v b j := rfl

end Cert.LowRank

end
-- ==== Proof.Products.lean ====
/-
  The kernel's two matrix products, read at an index on the extended reals.

  The body multiplies its block of 128 rows of spikes `a` ([128, 16384]) with the transposed factor `w` ([32, 16384]),
  contracting the 16384 columns of BOTH (so `w` is read along its rows): at `(p, r)` the product is
  `Σ_k a[p, k] · w[r, k]`. It then multiplies that [128, 32] result `z` with the other transposed factor `w'`
  ([32, 16384]), contracting the 32 columns of `z` with the 32 rows of `w'`: at `(p, j)` it is `Σ_r z[p, r] · w'[r, j]`.
  Each product accumulates into a splat of zeros, and `0 + x = x` on every extended real, so each is the plain sum.
  A change of float format between the two is the identity on the extended reals.
-/
import proofs.«165572_j20349555048714_2_alg».proof.Proof.Gen.KernelIdeal.Skeleton
import proofs.«165572_j20349555048714_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx Cert.LowRank

/-- The first product's dimensions: both operands contracted along their axis 1. -/
abbrev dProj : DotDims S128x16384 S32x16384 S128x32 := dot_S128x16384_S32x16384_S128x32_1_1_0_0_n_n
/-- The second product's dimensions: the left operand's axis 1 against the right operand's axis 0. -/
abbrev dRecon : DotDims S128x32 S32x16384 S128x16384 := dot_S128x32_S32x16384_S128x16384_1_0_0_1_n_n

/-! ## Where each product reads its operands -/

theorem proj_lhs_row (i : S128x32.Idx) (q : dProj.contr.Idx) : (dProj.lhsIdx i q 0).val = (i 0).val := by
  unfold DotDims.lhsIdx
  rw [dif_neg (show ¬(0 : Fin S128x16384.rank) ∈ dProj.lhsBatch by decide),
    dif_pos (show (0 : Fin S128x16384.rank) ∈ dProj.lhsNonContracting by decide)]
  rfl
theorem proj_lhs_col (i : S128x32.Idx) (q : dProj.contr.Idx) : (dProj.lhsIdx i q 1).val = (q ⟨0, by decide⟩).val :=
  dProj.lhsIdx_val_of_single rfl i q
theorem proj_rhs_row (i : S128x32.Idx) (q : dProj.contr.Idx) : (dProj.rhsIdx i q 0).val = (i 1).val := by
  unfold DotDims.rhsIdx
  rw [dif_neg (show ¬(0 : Fin S32x16384.rank) ∈ dProj.rhsBatch by decide),
    dif_pos (show (0 : Fin S32x16384.rank) ∈ dProj.rhsNonContracting by decide)]
  rfl
theorem proj_rhs_col (i : S128x32.Idx) (q : dProj.contr.Idx) : (dProj.rhsIdx i q 1).val = (q ⟨0, by decide⟩).val :=
  dProj.rhsIdx_val_of_single rfl i q

theorem recon_lhs_row (i : S128x16384.Idx) (q : dRecon.contr.Idx) : (dRecon.lhsIdx i q 0).val = (i 0).val := by
  unfold DotDims.lhsIdx
  rw [dif_neg (show ¬(0 : Fin S128x32.rank) ∈ dRecon.lhsBatch by decide),
    dif_pos (show (0 : Fin S128x32.rank) ∈ dRecon.lhsNonContracting by decide)]
  rfl
theorem recon_lhs_col (i : S128x16384.Idx) (q : dRecon.contr.Idx) : (dRecon.lhsIdx i q 1).val = (q ⟨0, by decide⟩).val :=
  dRecon.lhsIdx_val_of_single rfl i q
theorem recon_rhs_row (i : S128x16384.Idx) (q : dRecon.contr.Idx) : (dRecon.rhsIdx i q 0).val = (q ⟨0, by decide⟩).val :=
  dRecon.rhsIdx_val_of_single rfl i q
theorem recon_rhs_col (i : S128x16384.Idx) (q : dRecon.contr.Idx) : (dRecon.rhsIdx i q 1).val = (i 1).val := by
  unfold DotDims.rhsIdx
  rw [dif_neg (show ¬(1 : Fin S32x16384.rank) ∈ dRecon.rhsBatch by decide),
    dif_pos (show (1 : Fin S32x16384.rank) ∈ dRecon.rhsNonContracting by decide)]
  rfl

/-! ## The two products as sums -/

/-- The projection of a block: `(a · wᵀ)[p, r] = Σ_k a[p, k] · w[r, k]`. -/
theorem proj_apply (a : FVec Ideal S128x16384 .bf16) (w : FVec Ideal S32x16384 .bf16) (p : Fin 128) (r : Fin 32) :
    matmul dProj none a w (constant (F := Ideal) S128x32 .f32 0x00000000#32) (ix2 p r)
      = ∑ k : Fin 16384, a (ix2 p k) * w (ix2 r k) := by
  simp only [matmul]
  rw [Ideal.matmul_constant_zero_apply, ← Equiv.sum_comp (contrEquiv1 dProj 16384 rfl rfl).symm]
  refine Finset.sum_congr rfl fun k _ => ?_
  have hk := contrEquiv1_symm_val dProj 16384 rfl rfl k
  have el : dProj.lhsIdx (ix2 p r) ((contrEquiv1 dProj 16384 rfl rfl).symm k) = ix2 p k := funext fun x => Fin.ext (by
    match x with
    | ⟨0, _⟩ => exact proj_lhs_row _ _
    | ⟨1, _⟩ => exact (proj_lhs_col _ _).trans hk)
  have er : dProj.rhsIdx (ix2 p r) ((contrEquiv1 dProj 16384 rfl rfl).symm k) = ix2 r k := funext fun x => Fin.ext (by
    match x with
    | ⟨0, _⟩ => exact proj_rhs_row _ _
    | ⟨1, _⟩ => exact (proj_rhs_col _ _).trans hk)
  rw [el, er]

/-- The reconstruction of a block: `(z · w')[p, j] = Σ_r z[p, r] · w'[r, j]`. -/
theorem recon_apply (z : FVec Ideal S128x32 .bf16) (w' : FVec Ideal S32x16384 .bf16) (p : Fin 128) (j : Fin 16384) :
    matmul dRecon none z w' (constant (F := Ideal) S128x16384 .f32 0x00000000#32) (ix2 p j)
      = ∑ r : Fin 32, z (ix2 p r) * w' (ix2 r j) := by
  simp only [matmul]
  rw [Ideal.matmul_constant_zero_apply, ← Equiv.sum_comp (contrEquiv1 dRecon 32 rfl rfl).symm]
  refine Finset.sum_congr rfl fun r _ => ?_
  have hr := contrEquiv1_symm_val dRecon 32 rfl rfl r
  have el : dRecon.lhsIdx (ix2 p j) ((contrEquiv1 dRecon 32 rfl rfl).symm r) = ix2 p r := funext fun x => Fin.ext (by
    match x with
    | ⟨0, _⟩ => exact recon_lhs_row _ _
    | ⟨1, _⟩ => exact (recon_lhs_col _ _).trans hr)
  have er : dRecon.rhsIdx (ix2 p j) ((contrEquiv1 dRecon 32 rfl rfl).symm r) = ix2 r j := funext fun x => Fin.ext (by
    match x with
    | ⟨0, _⟩ => exact (recon_rhs_row _ _).trans hr
    | ⟨1, _⟩ => exact recon_rhs_col _ _)
  rw [el, er]

/-! ## The body's payload -/

/-- What the body stores, at row `p` and column `j` of its block, from the three blocks it loads: the spikes' block
    `x0`, the transposed `V` (`x1`) and the transposed `U` (`x2`). -/
theorem payload_apply (x0 : FVec Ideal S128x16384 .f32) (x1 x2 : FVec Ideal S32x16384 .bf16) (p : Fin 128) (j : Fin 16384) :
    k0_pay1 (F := Ideal) x0 x1 x2 (ix2 p j)
      = ∑ r : Fin 32, (∑ k : Fin 16384, x0 (ix2 p k) * x1 (ix2 r k)) * x2 (ix2 r j) := by
  unfold k0_pay1
  simp only [shapeCast_self]
  refine (recon_apply _ _ p j).trans ?_
  refine Finset.sum_congr rfl fun r _ => ?_
  refine congrArg (· * x2 (ix2 r j)) ?_
  exact proj_apply _ _ p r

/-- So, when the three loaded blocks are rows of three whole arrays — the spikes' block row `p` is row `b` of `s`, the
    second block is `v` transposed and the third is `u` transposed — what the body stores at `(p, j)` is the low-rank
    projection of `s`, `u`, `v` at row `b`, column `j`. -/
theorem payload_is_recon (x0 : FVec Ideal S128x16384 .f32) (x1 x2 : FVec Ideal S32x16384 .bf16)
    (s : Spikes) (u v : Factor) (b : Fin 4096) (p : Fin 128) (j : Fin 16384)
    (h0 : ∀ k : Fin 16384, x0 (ix2 p k) = s (ix2 b k))
    (h1 : ∀ (r : Fin 32) (k : Fin 16384), x1 (ix2 r k) = v (ix2 k r))
    (h2 : ∀ r : Fin 32, x2 (ix2 r j) = u (ix2 j r)) :
    k0_pay1 (F := Ideal) x0 x1 x2 (ix2 p j) = recon s u v b j := by
  refine (payload_apply x0 x1 x2 p j).trans ?_
  unfold recon proj
  refine Finset.sum_congr rfl fun r _ => ?_
  rw [h2 r]
  refine congrArg (· * u (ix2 j r)) (Finset.sum_congr rfl fun k _ => ?_)
  rw [h0 k, h1 r k]

end Cert.KernelIdeal.Hand

end
-- ==== Proof.HostSide.lean ====
/-
  What the region finds in the two factor windows.

  Before the one region the host transposes `V` ([16384, 32]) to [32, 16384] and narrows it to bf16, and does the same
  to `U`; the region's second and third windows stage those two arrays. On the extended reals the narrowing is the
  identity, so the second window's array at `(r, k)` is `V[k, r]` and the third's at `(r, j)` is `U[j, r]`.
-/
import proofs.«165572_j20349555048714_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- A [16384, 32] array transposed, read at `(r, k)`, is the array at `(k, r)`. -/
theorem transposed_apply (x : S16384x32.Idx → EReal) (r : Fin 32) (k : Fin 16384) :
    transpose S32x16384 [1, 0] x Gen.transposes_S16384x32_S32x16384_1_0 (ix2 r k) = x (ix2 k r) :=
  transpose_apply [1, 0] x Gen.transposes_S16384x32_S32x16384_1_0 (ix2 r k) (ix2 k r) (fun b => match b with
    | ⟨0, _⟩ => rfl
    | ⟨1, _⟩ => rfl)

/-- The second window's array is the transposed `V`. -/
theorem vT_apply (c : Dev nD) (r : Fin 32) (k : Fin 16384) :
    (V m c main_v1 : S32x16384.Idx → EReal) (ix2 r k)
      = (m ((c : Thread nD τ).loc main_arg2) : S16384x32.Idx → EReal) (ix2 k r) := by
  have e : @Eq (S32x16384.Idx → EReal) (V m c main_v1)
      (truncf (F := Ideal) .bf16 (transpose S32x16384 [1, 0]
        (m ((c : Thread nD τ).loc main_arg2) : S16384x32.Idx → EReal) Gen.transposes_S16384x32_S32x16384_1_0)
          Gen.bitsLt_bf16_f32) := by
    dsimp only [V, hostOps0]; after_results
  rw [e]
  exact transposed_apply _ r k

/-- The third window's array is the transposed `U`. -/
theorem uT_apply (c : Dev nD) (r : Fin 32) (j : Fin 16384) :
    (V m c main_v3 : S32x16384.Idx → EReal) (ix2 r j)
      = (m ((c : Thread nD τ).loc main_arg1) : S16384x32.Idx → EReal) (ix2 j r) := by
  have e : @Eq (S32x16384.Idx → EReal) (V m c main_v3)
      (truncf (F := Ideal) .bf16 (transpose S32x16384 [1, 0]
        (m ((c : Thread nD τ).loc main_arg1) : S16384x32.Idx → EReal) Gen.transposes_S16384x32_S32x16384_1_0)
          Gen.bitsLt_bf16_f32) := by
    dsimp only [V, hostOps0]; after_results
  rw [e]
  exact transposed_apply _ r j

end Cert.KernelIdeal.Hand

end
-- ==== Proof.Blocks.lean ====
/-
  From the blocks to the whole result array.

  The region runs on a grid of 32 points. At point `t` it stages rows `128·t … 128·t + 127` of the spikes (all 16384
  columns), the whole transposed `V` and the whole transposed `U` (the same block at every point), and writes back rows
  `128·t … 128·t + 127` of the result. What point `t` writes at row `p`, column `j` of its block is the body's two
  products of those blocks, `Σ_r (Σ_k spikes[128·t + p, k] · V[k, r]) · U[j, r]`: the low-rank projection at row
  `128·t + p`, column `j`. The 32 blocks of 128 rows tile the 4096 rows — row `b` is in the block of point `b / 128` —
  so after the run the result array is the low-rank projection of the three arguments everywhere.
-/
import proofs.«165572_j20349555048714_2_alg».proof.Proof.Gen.KernelIdeal.Value
import proofs.«165572_j20349555048714_2_alg».proof.Proof.Products
import proofs.«165572_j20349555048714_2_alg».proof.Proof.HostSide
import proofs.«165572_j20349555048714_2_alg».proof.Proof.Spec

noncomputable section

namespace Cert.KernelIdeal.Hand

open Cert.KernelIdeal Cert.KernelIdeal.Gen Cert.KernelIdeal.Value
open Idealize.ShloMosaic Idealize.ShloMosaic.TcCoe Idealize.ShloMosaic.ValueIdx Idealize.SL.Sem Cert.LowRank
open Idealize.ShloMosaic.Pipeline (Dat)

variable (m : (ℓ : Loc nD τ sig) → Buf (Elt Ideal) ℓ) (ρ : Dev nD → PrngReg)

/-- The body loads and stores its buffers whole: through rectangles at zero offsets. -/
theorem offsets_zero : (![0, 0] : Fin 2 → Nat) = fun _ => 0 := funext fun a => by fin_cases a <;> rfl

/-- The printed index maps over the 32 grid points: the spikes' window and the result's are at block row `t`, block
    column 0; the two factor windows stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `128·t + p` of the array. -/
def row (t : Fin cfg0.N) (p : Fin 128) : Fin 4096 :=
  ⟨128 * t.val + p.val, by have := t.isLt; have hN : cfg0.N = 32 := N_0; have := p.isLt; omega⟩

/-! ## The three input blocks at a point -/

/-- The spikes' block at point `t`: rows `128·t …` of the first argument. -/
theorem blk_spikes (c : Dev nD) (t : Fin cfg0.N) (p : Fin 128) (k : Fin 16384) :
    (iblk m c 0 t : S128x16384.Idx → EReal) (ix2 p k)
      = (m ((c : Thread nD τ).loc main_arg0) : S4096x16384.Idx → EReal) (ix2 (row t p) k) := by
  obtain ⟨e0, e1, -⟩ := block_indices t
  show V m c main_arg0 (((cfg0.win 0).blk t).view.emb (ix2 p k)) = _
  rw [V_main_arg0]
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 16384 + 1 * k.val = k.val; omega

/-- The second window's block at every point is the whole transposed `V`. -/
theorem blk_vT (c : Dev nD) (t : Fin cfg0.N) (r : Fin 32) (k : Fin 16384) :
    (iblk m c 1 t : S32x16384.Idx → EReal) (ix2 r k)
      = (m ((c : Thread nD τ).loc main_arg2) : S16384x32.Idx → EReal) (ix2 k r) := by
  obtain ⟨-, -, e0, e1, -⟩ := block_indices t
  refine Eq.trans ?_ (vT_apply m c r k)
  show V m c main_v1 (((cfg0.win 1).blk t).view.emb (ix2 r k)) = V m c main_v1 (ix2 r k)
  refine congrArg _ (funext fun a => Fin.ext ?_)
  match a with
  | ⟨0, _⟩ => show win0_1.index t (0 : Fin 2) * 32 + 1 * r.val = r.val; omega
  | ⟨1, _⟩ => show win0_1.index t (1 : Fin 2) * 16384 + 1 * k.val = k.val; omega

/-- The third window's block at every point is the whole transposed `U`. -/
theorem blk_uT (c : Dev nD) (t : Fin cfg0.N) (r : Fin 32) (j : Fin 16384) :
    (iblk m c 2 t : S32x16384.Idx → EReal) (ix2 r j)
      = (m ((c : Thread nD τ).loc main_arg1) : S16384x32.Idx → EReal) (ix2 j r) := by
  obtain ⟨-, -, -, -, e0, e1, -⟩ := block_indices t
  refine Eq.trans ?_ (uT_apply m c r j)
  show V m c main_v3 (((cfg0.win 2).blk t).view.emb (ix2 r j)) = V m c main_v3 (ix2 r j)
  refine congrArg _ (funext fun a => Fin.ext ?_)
  match a with
  | ⟨0, _⟩ => show win0_2.index t (0 : Fin 2) * 32 + 1 * r.val = r.val; omega
  | ⟨1, _⟩ => show win0_2.index t (1 : Fin 2) * 16384 + 1 * j.val = j.val; omega

/-- Where the result's block at point `t` sits in the array. -/
theorem blk_result_idx (t : Fin cfg0.N) (p : Fin 128) (j : Fin 16384) :
    ((cfg0.win 3).blk t).view.emb (ix2 p j) = (ix2 (row t p) j : S4096x16384.Idx) := by
  obtain ⟨-, -, -, -, -, -, e0, e1⟩ := block_indices t
  refine funext fun a => Fin.ext ?_
  match a with
  | ⟨0, _⟩ => show win0_3.index t (0 : Fin 2) * 128 + 1 * p.val = 128 * t.val + p.val; omega
  | ⟨1, _⟩ => show win0_3.index t (1 : Fin 2) * 16384 + 1 * j.val = j.val; omega

/-! ## What a point writes back -/

/-- The result of the three arguments. -/
abbrev result (c : Dev nD) : S4096x16384.Idx → EReal :=
  lowRank (m ((c : Thread nD τ).loc main_arg0)) (m ((c : Thread nD τ).loc main_arg1)) (m ((c : Thread nD τ).loc main_arg2))

/-- Point `t` writes back block `t` of the low-rank projection of the arguments. -/
theorem flushed_eq (c : Dev nD) (t : Fin cfg0.N) :
    (dats m 0 c).flushed 3 t = ((cfg0.win 3).blk t).view.read (Elt Ideal) (result m c) := by
  rw [flushed3]
  unfold out0_3
  rw [View.canon_unit_zero offsets_zero]
  simp only [View.ld_unit_zero (S := S128x16384) offsets_zero, View.ld_unit_zero (S := S32x16384) offsets_zero]
  funext y
  obtain ⟨p, j, rfl⟩ : ∃ (p : Fin 128) (j : Fin 16384), y = ix2 p j := ⟨y 0, y 1, eq_ix2 y⟩
  show k0_pay1 (F := Ideal) (iblk m c 0 t) (iblk m c 1 t) (iblk m c 2 t) (ix2 p j)
    = result m c (((cfg0.win 3).blk t).view.emb (ix2 p j))
  rw [blk_result_idx]
  show k0_pay1 (F := Ideal) (iblk m c 0 t) (iblk m c 1 t) (iblk m c 2 t) (ix2 p j)
    = recon (m ((c : Thread nD τ).loc main_arg0)) (m ((c : Thread nD τ).loc main_arg1))
        (m ((c : Thread nD τ).loc main_arg2)) (row t p) j
  exact payload_is_recon (iblk m c 0 t) (iblk m c 1 t) (iblk m c 2 t)
    (m ((c : Thread nD τ).loc main_arg0)) (m ((c : Thread nD τ).loc main_arg1)) (m ((c : Thread nD τ).loc main_arg2))
    (row t p) p j (fun k => blk_spikes m c t p k) (fun r k => blk_vT m c t r k) (fun r => blk_uT m c t r j)

/-! ## The blocks tile the array -/

/-- An index is in point `t`'s block iff each coordinate is in the block's range on its axis. -/
theorem mem_blk (t : Fin cfg0.N) (i : S4096x16384.Idx) :
    i ∈ ((cfg0.win 3).blk t).view.set ↔ ∀ a : Fin 2, win0_3.index t a * S128x16384.size a ≤ (i a).val
      ∧ (i a).val < win0_3.index t a * S128x16384.size a + S128x16384.size a := by
  show i ∈ ((View.whole main_v4).slice (win0_3.rect t)).set ↔ _
  rw [View.set_slice_whole, Rect.mem_set_unit]
  exact Iff.rfl

/-- Every index of the result is in the block of the point its row falls in. -/
theorem covered (i : S4096x16384.Idx) :
    ∃ t : Fin cfg0.N, (cfg0.win 3).flush t = true ∧ i ∈ ((cfg0.win 3).blk t).view.set := by
  have hN : cfg0.N = 32 := N_0
  have hi0 : (i 0).val < 4096 := (i 0).isLt
  have hi1 : (i 1).val < 16384 := (i 1).isLt
  have ht : (i 0).val / 128 < cfg0.N := by omega
  obtain ⟨-, -, -, -, -, -, e0, e1⟩ := block_indices ⟨(i 0).val / 128, ht⟩
  refine ⟨⟨(i 0).val / 128, ht⟩, flush0_3 _, ?_⟩
  rw [mem_blk]
  intro a
  match a with
  | ⟨0, _⟩ =>
    show win0_3.index ⟨(i 0).val / 128, ht⟩ (0 : Fin 2) * 128 ≤ (i 0).val
      ∧ (i 0).val < win0_3.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_3.index ⟨(i 0).val / 128, ht⟩ (1 : Fin 2) * 16384 ≤ (i 1).val
      ∧ (i 1).val < win0_3.index ⟨(i 0).val / 128, ht⟩ (1 : Fin 2) * 16384 + 16384
    rw [e1]; omega

/-! ## The result array, and the run -/

/-- After the run the result array is the low-rank projection of the arguments. -/
theorem final (c : Dev nD) : (dats m 0 c).arrAt 3 cfg0.N = result m c :=
  (dats m 0 c).arrAt_eq_of_cover 3 (result m c) (fun t _ => flushed_eq m c t) covered

/-- The kernel's run, read: every weakly fair execution terminates with the result array at the low-rank projection of
    the launch contents of the three float arguments, and every argument unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Hand

end
-- ==== Proof.RefIsSpec.lean ====
/-
  The reference computes the low-rank projection.

  Its three host operations are `z = spikes · V` (a product contracting the 16384 columns of the spikes with the rows of
  `V`), `Uᵀ` (a transpose) and `z · Uᵀ` (a product contracting the 32 columns of `z` with the rows of `Uᵀ`). Read at an
  index `(b, j)` on the extended reals the result is `Σ_r (Σ_k spikes[b, k] · V[k, r]) · Uᵀ[r, j]`, and `Uᵀ[r, j]` is
  `U[j, r]`: the specification, term for term. What is proved here is only that the indices at which the three
  operations read their operands are the specification's.
-/
import proofs.«165572_j20349555048714_2_alg».proof.Proof.Gen.ReferenceIdeal.Read
import proofs.«165572_j20349555048714_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.LowRank

/-- The first product reads the spikes at row `b` of the result and column `k` of the contraction. -/
theorem spikes_idx (i : S4096x16384.Idx) (r : Fin 32) (k : Fin 16384) :
    lidx_main_v0 (lidx_main_v2 i r) k = ix2 (i 0) k :=
  funext fun a => Fin.ext (by match a with | ⟨0, _⟩ => rfl | ⟨1, _⟩ => rfl)

/-- … and `V` at row `k`, column `r`. -/
theorem v_idx (i : S4096x16384.Idx) (r : Fin 32) (k : Fin 16384) :
    ridx_main_v0 (lidx_main_v2 i r) k = ix2 k r :=
  funext fun a => Fin.ext (by match a with | ⟨0, _⟩ => rfl | ⟨1, _⟩ => rfl)

/-- The second product reads `Uᵀ` at `(r, j)`, which the transpose reads from `U` at `(j, r)`. -/
theorem u_idx (i : S4096x16384.Idx) (r : Fin 32) :
    idx_main_v1 (ridx_main_v2 i r) = ix2 (i 1) r :=
  funext fun a => Fin.ext (by match a with | ⟨0, _⟩ => rfl | ⟨1, _⟩ => rfl)

/-- The reference's result, as a function of its three float arguments, is the low-rank projection. -/
theorem ref_is_lowRank (x0 : Spikes) (x1 x2 : Factor) :
    val_main_v2 (F := Ideal) x0 x1 x2 = lowRank x0 x1 x2 := by
  funext i
  rw [val_main_v2_apply]
  show _ = ∑ r : Fin 32, proj x0 x2 (i 0) r * x1 (ix2 (i 1) r)
  refine Finset.sum_congr rfl fun r _ => ?_
  rw [val_main_v0_apply, val_main_v1_apply, u_idx]
  unfold proj
  simp only [spikes_idx, v_idx]
  rfl

end Cert.ReferenceIdeal.RefValue

end
-- ==== Proof.lean ====
/- The kernel computes the low-rank projection `y = (spikes · V) · Uᵀ` of its reference, on the extended reals.

   The claim has five parts. Three say that each program — the kernel as printed, the kernel read on the extended reals,
   and the reference read on the extended reals — terminates without a fault and leaves its six argument arrays as they
   were. One says the extended-real kernel is the printed kernel's idealization, which here changes no operation. The
   last says the extended-real kernel and the reference, started from memories that agree on the arguments, end with
   equal result arrays.

   For the last part both results are shown to be ONE function of the arguments (Proof/Spec.lean): at row `b`, column
   `j`, `Σ_{r<32} (Σ_{k<16384} spikes[b,k] · V[k,r]) · U[j,r]`. The reference is that function by reading its two
   products and its transpose at an index (Proof/RefIsSpec.lean). The kernel works on 32 blocks of 128 rows: at each
   block it multiplies the block of spikes with the transposed `V` and the product with the transposed `U`
   (Proof/Products.lean), the two transposed factors being what the host prepared before the region
   (Proof/HostSide.lean); each block written back is the matching block of rows of the function, and the blocks tile the
   array (Proof/Blocks.lean). The two sides have the same sums with the same factors in the same order, so nothing
   about the extended reals is used beyond `0 + x = x` for the products' zero accumulators, and the finiteness of the
   inputs is never needed. -/
import proofs.«165572_j20349555048714_2_alg».proof.Defs
import proofs.«165572_j20349555048714_2_alg».proof.Proof.Gen.Kernel
import proofs.«165572_j20349555048714_2_alg».proof.Proof.Gen.Kernel.Frame
import proofs.«165572_j20349555048714_2_alg».proof.Proof.Gen.KernelIdeal
import proofs.«165572_j20349555048714_2_alg».proof.Proof.Gen.KernelIdeal.Frame
import proofs.«165572_j20349555048714_2_alg».proof.Proof.Gen.KernelIdeal.Value
import proofs.«165572_j20349555048714_2_alg».proof.Proof.Gen.ReferenceIdeal
import proofs.«165572_j20349555048714_2_alg».proof.Proof.Gen.ReferenceIdeal.Run
import proofs.«165572_j20349555048714_2_alg».proof.Proof.Gen.ReferenceIdeal.Read
import proofs.«165572_j20349555048714_2_alg».proof.Proof.Gen.Pre_finite_inputs
import proofs.«165572_j20349555048714_2_alg».proof.Proof.Blocks
import proofs.«165572_j20349555048714_2_alg».proof.Proof.RefIsSpec
import Idealize.ShloMosaic.Adequacy
import Idealize.ShloMosaic.Init

noncomputable section

namespace Cert.Proof

open Idealize.ShloMosaic Idealize.SL.Sem

/-- The printed kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is three host operations; its run keeps the arguments (the result is not looked at here). -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to preserve. -/
theorem preserves : Cert.preserves_Kernel_KernelIdeal := trivial

/-- From memories agreeing on the arguments, the kernel's result array and the reference's are both the low-rank
    projection of the same three arrays. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1]
  exact Cert.ReferenceIdeal.RefValue.ref_is_lowRank _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
